-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x16, .f32⟩
  | .local _ .vmem, ⟨4, _⟩ => ⟨S1x16, .f32⟩
  | .local _ .vmem, ⟨5, _⟩ => ⟨S400x16, .f32⟩
  | .local _ .vmem, ⟨6, _⟩ => ⟨S400x16, .f32⟩
  | .local _ .vmem, ⟨7, _⟩ => ⟨S10000x16, .f32⟩
  | .local _ .vmem, ⟨8, _⟩ => ⟨S10000x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bitsLt_bf16_f32 : FTy.bits .bf16 < FTy.bits .f32
  packedbf16_S10000x16_S10000x16_0_0 : (Rect.unit (s := S10000x16) ![0, 0] S10000x16.size inb_S10000x16_S10000x16_0_0).PackedRows (EltTy.packing .bf16)
  inb_S400x10000_S400x10000_0_0 : ∀ a, (![0, 0] : Fin 2 → Nat) a + S400x10000.size a ≤ S400x10000.size a
  h_S400x10000 : 0 < S400x10000.numel
  h_S400x16 : 0 < S400x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ a, (k0_off1 i) a + S400x16.size a ≤ S10000x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S_ : Shape := ⟨0, ![]⟩
abbrev S1x16 : Shape := ⟨2, ![1, 16]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S_, .f32⟩
  | .hbm, ⟨6, _⟩ => ⟨S10000x16, .f32⟩
  | .hbm, ⟨7, _⟩ => ⟨S10000x16, .f32⟩
  | .hbm, ⟨8, _⟩ => ⟨S10000x10000, .i32⟩
  | .hbm, ⟨9, _⟩ => ⟨S10000x10000, .i32⟩
  | .hbm, ⟨10, _⟩ => ⟨S_, .i32⟩
  | .hbm, ⟨11, _⟩ => ⟨S10000x10000, .i32⟩
  | .hbm, ⟨12, _⟩ => ⟨S10000x10000, .i32⟩
  | .hbm, ⟨13, _⟩ => ⟨S10000x10000, .i1⟩
  | .hbm, ⟨14, _⟩ => ⟨S10000x10000, .f32⟩
  | .hbm, ⟨15, _⟩ => ⟨S10000x10000, .f32⟩
  | .hbm, ⟨16, _⟩ => ⟨S10000x16, .f32⟩
  | .hbm, ⟨17, _⟩ => ⟨S1x16, .f32⟩
  | .hbm, ⟨18, _⟩ => ⟨S10000x16, .f32⟩
  | .hbm, ⟨19, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  bcast_S_S10000x10000 : S_.BroadcastsInDim S10000x10000 (![] : Fin 0 → Fin S10000x10000.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.LibRealFold.lean ====
/-
  Extended reals that are real numbers, and folds of `max` over a nonempty finite set — a general module: it depends
  on Mathlib only.
  An extended real "is real" when it is the image of a real number. Products, sums and finite sums of such are such
  (`isReal_mul`, `isReal_add`, `isReal_sum`), and so is the fold of `max` from the bottom element over a nonempty
  finite family of them (`fold_max_isReal`).
  A monotone map commutes with the fold of `max` from the bottom element over a nonempty finite family
  (`fold_max_map`): the largest image is the image of the largest.
-/
import Mathlib.Data.EReal.Inv
import Mathlib.Data.Finset.Fold
import Mathlib.Algebra.BigOperators.Group.Finset.Basic

namespace Cert.RealFold

open scoped BigOperators

/-- The product of two real numbers, read in the extended reals, is a real number. -/
theorem isReal_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- The sum of two real numbers, read in the extended reals, is a real number. -/
theorem isReal_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, read in the extended reals, is a real number. -/
theorem isReal_sum {ι : Type*} (s : Finset ι) (f : ι → EReal) (hf : ∀ j ∈ s, ∃ r : ℝ, f j = (r : EReal)) :
    ∃ r : ℝ, ∑ j ∈ s, f j = (r : EReal) :=
  Finset.sum_induction f (fun z => ∃ r : ℝ, z = (r : EReal)) (fun _ _ => isReal_add) ⟨0, EReal.coe_zero.symm⟩ hf

/-- A monotone map commutes with the fold of `max` from the bottom element over a nonempty finite family: the
    largest of the images is the image of the largest. (Over the empty family the two sides are `⊥` and the image of
    `⊥`, which need not agree.) -/
theorem fold_max_map {ι : Type*} {g : EReal → EReal} (hg : Monotone g) (f : ι → EReal) {s : Finset ι}
    (hs : s.Nonempty) : s.fold max ⊥ (fun j => g (f j)) = g (s.fold max ⊥ f) := by
  induction hs using Finset.Nonempty.cons_induction with
  | singleton a => rw [Finset.fold_singleton, Finset.fold_singleton, max_bot_right, max_bot_right]
  | cons a s ha hs ih => rw [Finset.fold_cons, Finset.fold_cons, ih, hg.map_max]

/-- The fold of `max` from the bottom element over a nonempty finite family of real numbers is a real number. -/
theorem fold_max_isReal {ι : Type*} (f : ι → EReal) {s : Finset ι} (hs : s.Nonempty)
    (hf : ∀ j ∈ s, ∃ r : ℝ, f j = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, max_bot_right, hr]⟩
  | cons a s ha hs ih =>
    obtain ⟨r, hr⟩ := hf a (Finset.mem_cons_self a s)
    obtain ⟨q, hq⟩ := ih fun j hj => hf j (Finset.mem_cons.mpr (Or.inr hj))
    refine ⟨max r q, ?_⟩
    rw [Finset.fold_cons, hr, hq]
    exact (EReal.coe_strictMono.monotone.map_max).symm

end Cert.RealFold
-- ==== Proof.LibIndicatorSum.lean ====
/-
  Adding an indicator to the left factors of a sum of products, over the extended reals — a general module: it depends
  on Mathlib only.

  In the extended reals a product does not distribute over a sum in general: with a = −1, e = 1 and s = +∞ the product
  (a + e) · s is 0 · ∞ = 0 while a · s + e · s is −∞ + ∞ = −∞. It does when all three are real numbers
  (`add_mul_of_real`). Summed over a finite index set with e the indicator of one position r, this gives

      Σ_k (a_k + e_k) · s_k  =  Σ_k a_k · s_k  +  s_r

  whenever every a_k and s_k is real (`sum_add_indicator_mul`): what turns a product with (A + I), the identity matrix
  added entry by entry, into the product with A plus the right factor's own row.
-/
import Mathlib.Data.EReal.Inv
import Mathlib.Algebra.BigOperators.Group.Finset.Basic
import Mathlib.Algebra.BigOperators.Group.Finset.Piecewise

namespace Cert.LibIndicatorSum

open scoped BigOperators

/-- A real factor distributes over a sum of two reals, read in the extended reals. -/
theorem add_mul_of_real {a e s : EReal} (ha : ∃ q : ℝ, a = (q : EReal)) (he : ∃ q : ℝ, e = (q : EReal))
    (hs : ∃ q : ℝ, s = (q : EReal)) : (a + e) * s = a * s + e * s := by
  obtain ⟨a, rfl⟩ := ha
  obtain ⟨e, rfl⟩ := he
  obtain ⟨s, rfl⟩ := hs
  rw [← EReal.coe_add, ← EReal.coe_mul, ← EReal.coe_mul, ← EReal.coe_mul, ← EReal.coe_add, add_mul]

/-- Adding the indicator of position r to the left factors of a finite sum of products of reals adds the r-th right
    factor to the sum. -/
theorem sum_add_indicator_mul {n : Nat} (a e s : Fin n → EReal) (r : Fin n)
    (ha : ∀ k, ∃ q : ℝ, a k = (q : EReal)) (hs : ∀ k, ∃ q : ℝ, s k = (q : EReal))
    (he : ∀ k, e k = if k = r then 1 else 0) :
    ∑ k, (a k + e k) * s k = ∑ k, a k * s k + s r := by
  have hterm : ∀ k, (a k + e k) * s k = a k * s k + (if k = r then s k else 0) := by
    intro k
    have hek : ∃ q : ℝ, e k = (q : EReal) := by
      rw [he k]
      split_ifs
      · exact ⟨1, EReal.coe_one.symm⟩
      · exact ⟨0, EReal.coe_zero.symm⟩
    rw [add_mul_of_real (ha k) hek (hs k), he k]
    split_ifs
    · rw [one_mul]
    · rw [zero_mul]
  rw [Finset.sum_congr rfl (fun k _ => hterm k), Finset.sum_add_distrib, Finset.sum_ite_eq' Finset.univ r s,
    if_pos (Finset.mem_univ r)]

end Cert.LibIndicatorSum
-- ==== Proof.GraphConvSpec.lean ====
/-
  The graph convolution both programs compute, as one function of the four argument arrays over the extended reals,
  and the one algebraic law that joins the two ways of computing it.

  With feature x (10000 × 128), adjacency a (10000 × 10000), weights w (128 × 16) and bias b (16):

      support k d = max (Σ_j x(k, j) · w(j, d)) 0                                   relu(x · w)
      out (r, d)  = (Σ_k a(r, k) · support k d  +  support r d)  +  b d

  One program forms (a + I) · support, the identity matrix I added to a entry by entry before the product; the other
  forms a · support and adds row r of support afterwards. Over the extended reals the step between them,

      Σ_k (a_k + e_k) · s_k  =  Σ_k a_k · s_k  +  s_r        where e_k is 1 at k = r and 0 elsewhere,

  distributes a product over a sum, which fails at infinities (with a_k = −1, e_k = 1 and s_k = +∞ the left side is
  0 · ∞ = 0 and the right −∞ + ∞). It holds when every a_k and s_k is a real number (Proof/LibIndicatorSum.lean proves it
  so); what this module adds is that the support entries are real whenever x and w are.
-/
import proofs.«151940_g16140487098643_cont_week2b_485_11_alg».proof.Proof.LibRealFold
import proofs.«151940_g16140487098643_cont_week2b_485_11_alg».proof.Proof.LibIndicatorSum
import Idealize.ShloMosaic.Lib.ValueIdx
import Idealize.ShloMosaic.PureOps.Ideal.Laws

noncomputable section

namespace Cert.GraphConv

open Idealize.ShloMosaic Idealize.ShloMosaic.ValueIdx

/-- relu(x · w) at node k, channel d. -/
def support (x : (⟨2, ![10000, 128]⟩ : Shape).Idx → EReal) (w : (⟨2, ![128, 16]⟩ : Shape).Idx → EReal)
    (k : Fin 10000) (d : Fin 16) : EReal :=
  max (∑ j : Fin 128, x (ix2 k j) * w (ix2 j d)) 0

/-- The result at node r, channel d. -/
def outAt (x : (⟨2, ![10000, 128]⟩ : Shape).Idx → EReal) (a : (⟨2, ![10000, 10000]⟩ : Shape).Idx → EReal)
    (w : (⟨2, ![128, 16]⟩ : Shape).Idx → EReal) (b : (⟨1, ![16]⟩ : Shape).Idx → EReal) (r : Fin 10000) (d : Fin 16) : EReal :=
  (∑ k : Fin 10000, a (ix2 r k) * support x w k d + support x w r d) + b (ix1 d)

/-- The result array. -/
def out (x : (⟨2, ![10000, 128]⟩ : Shape).Idx → EReal) (a : (⟨2, ![10000, 10000]⟩ : Shape).Idx → EReal)
    (w : (⟨2, ![128, 16]⟩ : Shape).Idx → EReal) (b : (⟨1, ![16]⟩ : Shape).Idx → EReal) :
    (⟨2, ![10000, 16]⟩ : Shape).Idx → EReal :=
  fun i => outAt x a w b (i 0) (i 1)

theorem out_ix2 (x : (⟨2, ![10000, 128]⟩ : Shape).Idx → EReal) (a : (⟨2, ![10000, 10000]⟩ : Shape).Idx → EReal)
    (w : (⟨2, ![128, 16]⟩ : Shape).Idx → EReal) (b : (⟨1, ![16]⟩ : Shape).Idx → EReal) (r : Fin 10000) (d : Fin 16) :
    out x a w b (ix2 r d) = outAt x a w b r d := rfl

/-- The support entries are real numbers when the features and the weights are. -/
theorem support_real (x : (⟨2, ![10000, 128]⟩ : Shape).Idx → EReal) (w : (⟨2, ![128, 16]⟩ : Shape).Idx → EReal)
    (hx : ∀ i, ∃ q : ℝ, x i = (q : EReal)) (hw : ∀ i, ∃ q : ℝ, w i = (q : EReal)) (k : Fin 10000) (d : Fin 16) :
    ∃ q : ℝ, support x w k d = (q : EReal) := by
  obtain ⟨q, hq⟩ := Cert.RealFold.isReal_sum Finset.univ (fun j : Fin 128 => x (ix2 k j) * w (ix2 j d))
    (fun j _ => Cert.RealFold.isReal_mul (hx _) (hw _))
  refine ⟨max q 0, ?_⟩
  unfold support
  rw [hq, ← EReal.coe_zero]
  exact (EReal.coe_strictMono.monotone.map_max).symm

end Cert.GraphConv

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.Finite.lean ====
/-
  From the precondition to real numbers.

  The precondition says of each float argument that every entry x satisfies |x| < +∞, as a conjunction of four
  all-reductions of elementwise comparisons against the word of +∞. Over the extended reals |x| = max x (−x) is below
  +∞ exactly when x is neither infinity, that is, when x is a real number. This module extracts that fact for the
  features, the adjacency matrix and the weights (the bias enters the result only through a final addition and needs
  no finiteness). The elementwise step — an entry that passes the test is a real number — is the general lemma of
  Proof/LibFiniteTest.lean.
-/
import proofs.«151940_g16140487098643_cont_week2b_485_11_alg».proof.Pre_finite_inputs
import proofs.«151940_g16140487098643_cont_week2b_485_11_alg».proof.Proof.Gen.Pre_finite_inputs
import proofs.«151940_g16140487098643_cont_week2b_485_11_alg».proof.Proof.LibFiniteTest
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs Cert.LibFiniteTest

variable [Facts]

/-- The rank-0 shape has one index. -/
instance : Subsingleton S_.Idx := ⟨fun a b => funext fun d => d.elim0⟩

/-- Under the precondition every entry of the features, of the adjacency matrix and of the weights is a real number. -/
theorem reals_of_pre (x0 : FVec Ideal S10000x128 .f32) (x1 : FVec Ideal S10000x10000 .f32) (x2 : FVec Ideal S128x16 .f32)
    (x3 : FVec Ideal S16 .f32) (h : fn (F := Ideal) x0 x1 x2 x3 = fun _ => 1#1) :
    (∀ i, ∃ q : ℝ, x0 i = (q : EReal)) ∧ (∀ i, ∃ q : ℝ, x1 i = (q : EReal)) ∧ (∀ i, ∃ q : ℝ, x2 i = (q : EReal)) := by
  have h0 := congrFun h ValueIdx.ix0
  dsimp only [fn, fn_part1] at h0
  obtain ⟨h012, -⟩ := IntOp.andi_eq_one.mp h0
  obtain ⟨h01, hw⟩ := IntOp.andi_eq_one.mp h012
  obtain ⟨hx, ha⟩ := IntOp.andi_eq_one.mp h01
  exact ⟨fun i => real_of_test (x0 i) (Host.reduce_andi_all _ _ _ _ _ hx i),
    fun i => real_of_test (x1 i) (Host.reduce_andi_all _ _ _ _ _ ha i),
    fun i => real_of_test (x2 i) (Host.reduce_andi_all _ _ _ _ _ hw i)⟩

end Cert.Pre_finite_inputs.Decode

end
-- ==== Proof.RefIsSpec.lean ====
/-
  The reference computes the specification.

  Read one operation at a time at node r and channel d, the reference's result is

      Σ_k (a(r, k) + e(r, k)) · relu(x · w)(k, d)  +  b d,

  where e is the identity matrix as the host builds it: an i1 comparison of a row counter (plus the integer zero) with
  a column counter, converted to a float, so 1 at k = r and 0 elsewhere (both counters stay below 10000, far from
  where 32-bit words wrap). Under the precondition the entries of a and of relu(x · w) are real numbers, and the law of
  the specification turns this into Σ_k a(r, k) · relu(x · w)(k, d) + relu(x · w)(r, d) + b d.
-/
import proofs.«151940_g16140487098643_cont_week2b_485_11_alg».proof.Proof.Gen.ReferenceIdeal.Read
import proofs.«151940_g16140487098643_cont_week2b_485_11_alg».proof.Proof.GraphConvSpec
import Idealize.ShloMosaic.Lib.Affine

noncomputable section

namespace Cert.ReferenceIdeal.RefValue

open Cert.ReferenceIdeal Cert.ReferenceIdeal.Read Idealize.ShloMosaic Idealize.ShloMosaic.ValueIdx

/-! ## Where each stage reads its operands, at (r, d) -/

theorem feat_idx (k : Fin 10000) (d : Fin 16) (j : Fin 128) : lidx_main_v0 (ix2 k d) j = ix2 k j :=
  funext fun a => Fin.ext (by match a with | ⟨0, _⟩ => rfl | ⟨1, _⟩ => rfl)

theorem weight_idx (k : Fin 10000) (d : Fin 16) (j : Fin 128) : ridx_main_v0 (ix2 k d) j = ix2 j d :=
  funext fun a => Fin.ext (by match a with | ⟨0, _⟩ => rfl | ⟨1, _⟩ => rfl)

theorem adj_idx (r : Fin 10000) (d : Fin 16) (k : Fin 10000) : lidx_main_v9 (ix2 r d) k = ix2 r k :=
  funext fun a => Fin.ext (by match a with | ⟨0, _⟩ => rfl | ⟨1, _⟩ => rfl)

theorem support_idx (r : Fin 10000) (d : Fin 16) (k : Fin 10000) : ridx_main_v9 (ix2 r d) k = ix2 k d :=
  funext fun a => Fin.ext (by match a with | ⟨0, _⟩ => rfl | ⟨1, _⟩ => rfl)

theorem bias_idx (r : Fin 10000) (d : Fin 16) : idx_main_v10 (idx_main_v11 (ix2 r d)) = ix1 d :=
  funext fun a => Fin.ext (by match a with | ⟨0, _⟩ => rfl)

/-! ## The stages -/

/-- relu(x · w) as the reference computes it is the specification's support. -/
theorem support_at (x0 : (⟨S10000x128, .f32⟩ : BufTy).Contents (Elt Ideal)) (x2 : (⟨S128x16, .f32⟩ : BufTy).Contents (Elt Ideal))
    (k : Fin 10000) (d : Fin 16) : val_main_v1 (F := Ideal) x0 x2 (ix2 k d) = Cert.GraphConv.support x0 x2 k d := by
  rw [val_main_v1_apply, val_main_v0_apply, val_main_call0_v0_apply, val_main_call0_cst_apply]
  simp only [feat_idx, weight_idx, Ideal.maximumf_def, Ideal.ofBits_def, Ideal.ofBits_zero_f32]
  rfl

/-- An entry of the identity matrix over 32-bit counters: row counter plus zero against column counter. -/
theorem eye_entry (r k : Fin 10000) :
    (FloatOps.uitofp (F := Ideal) .f32 (IntOp.cmpi .eq (IntOp.addi (BitVec.ofNat 32 r.val) 0#32) (BitVec.ofNat 32 k.val)) : EReal)
      = if k = r then 1 else 0 := by
  have hadd : IntOp.addi (BitVec.ofNat 32 r.val) 0#32 = BitVec.ofNat 32 r.val := by
    show BitVec.ofNat 32 r.val + 0#32 = _
    exact BitVec.add_zero _
  rw [hadd]
  by_cases h : k = r
  · subst h
    rw [if_pos rfl, IntOp.cmpi_eq.mpr rfl]
    show (((1#1 : BitVec 1).toNat : ℝ) : EReal) = 1
    simp
  · rw [if_neg h]
    have hne : ¬ IntOp.cmpi .eq (BitVec.ofNat 32 r.val) (BitVec.ofNat 32 k.val) = 1#1 := fun e => h (by
      have e' := congrArg BitVec.toNat (IntOp.cmpi_eq.mp e)
      rw [BitVec.toNat_ofNat, BitVec.toNat_ofNat] at e'
      have hr := r.isLt
      have hk := k.isLt
      exact Fin.ext (by omega))
    rw [eq_zero_of_ne_one hne]
    show (((0#1 : BitVec 1).toNat : ℝ) : EReal) = 0
    simp

/-- The identity matrix the reference adds to the adjacency matrix, at (r, k). -/
theorem eye_at (r k : Fin 10000) : val_main_v7 (F := Ideal) (ix2 r k) = if k = r then 1 else 0 := by
  rw [val_main_v7_apply, val_main_v6_apply, val_main_v5_apply, val_main_v4_apply, val_main_c_apply, val_main_v2_apply,
    val_main_v3_apply]
  exact eye_entry r k

/-! ## The result -/

/-- With real features, adjacency entries and weights, the reference's result array is the specification's. -/
theorem result_eq (x0 : (⟨S10000x128, .f32⟩ : BufTy).Contents (Elt Ideal)) (x1 : (⟨S10000x10000, .f32⟩ : BufTy).Contents (Elt Ideal))
    (x2 : (⟨S128x16, .f32⟩ : BufTy).Contents (Elt Ideal)) (x3 : (⟨S16, .f32⟩ : BufTy).Contents (Elt Ideal))
    (h0 : ∀ i, ∃ q : ℝ, x0 i = (q : EReal)) (h1 : ∀ i, ∃ q : ℝ, x1 i = (q : EReal)) (h2 : ∀ i, ∃ q : ℝ, x2 i = (q : EReal)) :
    val_main_v12 (F := Ideal) x0 x1 x2 x3 = Cert.GraphConv.out x0 x1 x2 x3 := by
  funext i
  obtain ⟨r, d, rfl⟩ : ∃ (r : Fin 10000) (d : Fin 16), i = ix2 r d := ⟨i 0, i 1, eq_ix2 i⟩
  rw [Cert.GraphConv.out_ix2, val_main_v12_apply, val_main_v9_apply, val_main_v11_apply, val_main_v10_apply, bias_idx]
  simp only [adj_idx, support_idx, val_main_v8_apply, support_at, eye_at, Ideal.addf_def]
  unfold Cert.GraphConv.outAt
  rw [Cert.LibIndicatorSum.sum_add_indicator_mul (fun k => x1 (ix2 r k)) (fun k => if k = r then 1 else 0)
    (fun k => Cert.GraphConv.support x0 x2 k d) r (fun k => h1 _) (fun k => Cert.GraphConv.support_real x0 x2 h0 h2 k d)
    (fun _ => rfl)]

end Cert.ReferenceIdeal.RefValue

end
-- ==== Proof.Pieces.lean ====
/-
  What one run of the kernel body leaves behind, as values.

  The body has two cases. At the grid's first point it computes the support matrix relu(feature · W) from the whole
  feature and weight blocks, stores it into the f32 scratch and (narrowed) into the bf16 scratch, and then goes on as at
  every other point: it multiplies the point's 400 rows of the adjacency matrix by the bf16 scratch, adds rows
  400·i … 400·i + 399 of the f32 scratch and the bias row, and stores the 400 × 16 result block.

  So after a first-point run both scratch arrays hold the support payload of the two loaded blocks, and the output
  block is the row payload of (adjacency block, bf16 scratch, the 400 rows of the f32 scratch, bias row) — the scratch
  contents being, at the first point, what that same run has just stored and reads back, and at a later point what
  the point before left.
-/
import proofs.«151940_g16140487098643_cont_week2b_485_11_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- Rows 400·i … 400·i + 399 of a 10000 × 16 array: what the body loads from the f32 scratch at grid point i. -/
abbrev rowsAt (i : grid0.Coords) (X : Vec F S10000x16 .f32) : Vec F S400x16 .f32 :=
  View.ld X (Rect.unit (s := S10000x16) (k0_off1 i) S400x16.size (k0_off1_inb i))

/-- First point: the f32 scratch ends at the support payload of the loaded feature and weight blocks. -/
theorem scratch_f32_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S400x16 .f32) (harg5 : arg5.IsWhole) (arg6 : Memref sig .tc .vmem S10000x16 .f32) (harg6 : arg6.IsWhole) (arg7 : Memref sig .tc .vmem S10000x16 .bf16) (harg7 : arg7.IsWhole) (hc0 : cond0_0 i) (x0 : Vec F S400x10000 .f32) (x1 : Vec F S10000x128 .f32) (x2 : Vec F S128x16 .f32) (x3 : Vec F S1x16 .f32) :
    sout0_A_0 c i arg1 harg1 arg2 harg2 arg3 harg3 arg4 harg4 arg5 harg5 arg6 harg6 arg7 harg7 hc0 x0 x1 x2 x3 = k0_pay2 x1 x2 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero (S := S10000x16) hz]
  simp only [View.readAt_eq_ld, harg2.read_unread, harg3.read_unread, View.ld_unit_zero (S := S10000x128) hz,
    View.ld_unit_zero (S := S128x16) hz]

/-- First point: the bf16 scratch ends at the narrowed support payload of the same two blocks. -/
theorem scratch_bf16_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S400x16 .f32) (harg5 : arg5.IsWhole) (arg6 : Memref sig .tc .vmem S10000x16 .f32) (harg6 : arg6.IsWhole) (arg7 : Memref sig .tc .vmem S10000x16 .bf16) (harg7 : arg7.IsWhole) (hc0 : cond0_0 i) (x0 : Vec F S400x10000 .f32) (x1 : Vec F S10000x128 .f32) (x2 : Vec F S128x16 .f32) (x3 : Vec F S1x16 .f32) :
    sout0_A_1 c i arg1 harg1 arg2 harg2 arg3 harg3 arg4 harg4 arg5 harg5 arg6 harg6 arg7 harg7 hc0 x0 x1 x2 x3 = k0_pay3 x1 x2 := by
  unfold sout0_A_1
  rw [View.read_writes_eq_canon _ _ _ (scover0_A_1 c i arg1 harg1 arg2 harg2 arg3 harg3 arg4 harg4 arg5 harg5 arg6 harg6 arg7 harg7 hc0 x0 x1 x2 x3)]
  unfold kernelRun0_A
  dsimp only
  sl_unfold_words
  rw [View.canon_unit_zero (S := S10000x16) hz]
  simp only [View.readAt_eq_ld, harg2.read_unread, harg3.read_unread, View.ld_unit_zero (S := S10000x128) hz,
    View.ld_unit_zero (S := S128x16) hz]

/-- First point: the output block is the row payload over the scratch contents this very run stored. -/
theorem out_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S400x16 .f32) (harg5 : arg5.IsWhole) (arg6 : Memref sig .tc .vmem S10000x16 .f32) (harg6 : arg6.IsWhole) (arg7 : Memref sig .tc .vmem S10000x16 .bf16) (harg7 : arg7.IsWhole) (hc0 : cond0_0 i) (x0 : Vec F S400x10000 .f32) (x1 : Vec F S10000x128 .f32) (x2 : Vec F S128x16 .f32) (x3 : Vec F S1x16 .f32) :
    out0_A_4 c i arg1 harg1 arg2 harg2 arg3 harg3 arg4 harg4 arg5 harg5 arg6 harg6 arg7 harg7 hc0 x0 x1 x2 x3
      = k0_pay4 x0 (k0_pay3 x1 x2) (rowsAt i (k0_pay2 x1 x2)) x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero (S := S400x16) hz, View.readCov_unit_zero (S := S10000x16) _ hz,
    View.readAt_writes_junk_eq_canon, View.canon_unit_zero (S := S10000x16) hz]
  simp only [View.readAt_eq_ld, harg1.read_unread, harg2.read_unread, harg3.read_unread, harg4.read_unread,
    View.ld_unit_zero (S := S400x10000) hz, View.ld_unit_zero (S := S10000x128) hz,
    View.ld_unit_zero (S := S128x16) hz, View.ld_unit_zero (S := S1x16) hz]
  rfl

/-- A later point: the output block is the row payload over the scratch contents the point before left. -/
theorem out_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S400x16 .f32) (harg5 : arg5.IsWhole) (arg6 : Memref sig .tc .vmem S10000x16 .f32) (harg6 : arg6.IsWhole) (arg7 : Memref sig .tc .vmem S10000x16 .bf16) (harg7 : arg7.IsWhole) (hc0 : ¬cond0_0 i) (x0 : Vec F S400x10000 .f32) (x1 : Vec F S10000x128 .f32) (x2 : Vec F S128x16 .f32) (x3 : Vec F S1x16 .f32)
    (xs0 : Vec F S10000x16 .f32) (xs1 : Vec F S10000x16 .bf16) :
    out0_B_4 c i arg1 harg1 arg2 harg2 arg3 harg3 arg4 harg4 arg5 harg5 arg6 harg6 arg7 harg7 hc0 x0 x1 x2 x3 xs0 xs1 = k0_pay4 x0 xs1 (rowsAt i xs0) x3 := by
  unfold out0_B_4
  rw [View.read_writes_eq_canon _ _ _ (cover0_B_4 c i arg1 harg1 arg2 harg2 arg3 harg3 arg4 harg4 arg5 harg5 arg6 harg6 arg7 harg7 hc0 x0 x1 x2 x3 xs0 xs1)]
  unfold kernelRun0_B
  dsimp only
  sl_unfold_words
  rw [View.canon_unit_zero (S := S400x16) hz]
  simp only [View.readAt_eq_ld, harg1.read_unread, harg4.read_unread, harg6.read_unread, harg7.read_unread,
    View.ld_unit_zero (S := S400x10000) hz, View.ld_unit_zero (S := S10000x16) hz, View.ld_unit_zero (S := S1x16) hz]
  rfl

end Cert.KernelIdeal.Body

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.Payloads.lean ====
/-
  The body's arithmetic read at an index, over the extended reals.

  Three facts. The support payload — a 10000 × 128 by 128 × 16 product into a zero accumulator, then a maximum with
  the zero splat — is, at node k and channel d, max (Σ_j x(k, j) · w(j, d)) 0. The two values stored into the scratch
  arrays are that same array: one through a shape cast to its own shape, the other also through a narrowing of the
  float format, which changes nothing over the extended reals. And the row payload at row p of the block and channel
  d is (Σ_k a(p, k) · s(k, d) + v(p, d)) + b(0, d): a 400 × 10000 by 10000 × 16 product into a zero accumulator (the
  left operand narrowed, again the identity), plus the loaded rows, plus the bias row broadcast down the block.
-/
import proofs.«151940_g16140487098643_cont_week2b_485_11_alg».proof.Proof.Gen.KernelIdeal.Skeleton
import proofs.«151940_g16140487098643_cont_week2b_485_11_alg».proof.Proof.GraphConvSpec
import proofs.«151940_g16140487098643_cont_week2b_485_11_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The support payload at node k, channel d. -/
theorem support_at (x1 : Vec Ideal S10000x128 .f32) (x2 : Vec Ideal S128x16 .f32) (k : Fin 10000) (d : Fin 16) :
    k0_pay1 (F := Ideal) x1 x2 (ix2 k d) = Cert.GraphConv.support x1 x2 k d := by
  unfold k0_pay1 Cert.GraphConv.support
  show max (FloatOps.matmul dot_S10000x128_S128x16_S10000x16_1_0_0_1_n_n none x1 x2
    (constant S10000x16 .f32 0x00000000#32) (ix2 k d)) (Ideal.ofBits .f32 0x00000000#32) = _
  rw [Ideal.ofBits_zero_f32]
  exact congrArg (fun z => max z 0) (Cert.LibPlainDot.matmul_zero_plain 10000 128 16 none x1 x2 (ix2 k d))

/-- What the first point stores into the f32 scratch is the support array. -/
theorem f32_store (x1 : Vec Ideal S10000x128 .f32) (x2 : Vec Ideal S128x16 .f32) :
    k0_pay2 (F := Ideal) x1 x2 = k0_pay1 (F := Ideal) x1 x2 := by
  unfold k0_pay2
  exact shapeCast_self _ _

/-- What it stores into the bf16 scratch is, entry by entry, the support array too. -/
theorem bf16_store_at (x1 : Vec Ideal S10000x128 .f32) (x2 : Vec Ideal S128x16 .f32) (j : S10000x16.Idx) :
    (k0_pay3 (F := Ideal) x1 x2 j : EReal) = k0_pay1 (F := Ideal) x1 x2 j := by
  unfold k0_pay3
  show (shapeCast S10000x16 (truncf .bf16 (k0_pay1 (F := Ideal) x1 x2) bitsLt_bf16_f32) shapeCasts_S10000x16_S10000x16 j : EReal) = _
  rw [shapeCast_self]
  rfl

/-- The row payload at row p of the block, channel d. -/
theorem rows_at (x0 : Vec Ideal S400x10000 .f32) (s1 : Vec Ideal S10000x16 .bf16) (v : Vec Ideal S400x16 .f32)
    (x3 : Vec Ideal S1x16 .f32) (p : Fin 400) (d : Fin 16) :
    (k0_pay4 (F := Ideal) x0 s1 v x3 (ix2 p d) : EReal)
      = (∑ k : Fin 10000, (x0 (ix2 p k) : EReal) * s1 (ix2 k d) + v (ix2 p d)) + x3 (ix2 (0 : Fin 1) d) := by
  unfold k0_pay4
  show (FloatOps.matmul (F := Ideal) dot_S400x10000_S10000x16_S400x16_1_0_0_1_n_n none (truncf .bf16 x0 bitsLt_bf16_f32) s1
      (constant S400x16 .f32 0x00000000#32) (ix2 p d) + v (ix2 p d) : EReal)
    + broadcastTo S400x16 (shapeCast S1x16 x3 shapeCasts_S1x16_S1x16) broadcasts_S1x16_S400x16 (ix2 p d) = _
  rw [shapeCast_self, broadcastTo_1b_ab_apply]
  exact congrArg (fun z : EReal => z + v (ix2 p d) + x3 (ix2 (0 : Fin 1) d))
    (Cert.LibPlainDot.matmul_zero_plain 400 10000 16 none (truncf .bf16 x0 bitsLt_bf16_f32) s1 (ix2 p d))

end Cert.KernelIdeal.Payload

end
-- ==== Proof.KernelValue.lean ====
/-
  What the kernel's result array holds after its run, over the extended reals: the specification's array.

  The grid has 25 points; point t handles rows 400·t … 400·t + 399. Three steps.

  The scratch arrays. The first point stores relu(x · w), computed from the whole feature and weight arrays, into both
  scratch arrays; no later point writes them. So after every point both hold that array (by induction on the point:
  the first point stores it, every other point leaves what the point before left).

  One block. The block point t writes is, at row p of the block and channel d,

      (Σ_k a(400·t + p, k) · s(k, d) + s(400·t + p, d)) + b d,        s = relu(x · w),

  the product against the narrow-format scratch, the added rows from the wide one at the offset 400·t the body
  computes, and the bias read along the 1 × 16 row the host made of it. That is the specification at row 400·t + p,
  whether the point is the first (and reads back what it has just stored) or a later one.

  The array. The 25 blocks tile the 10000 rows (row r lies in the block of point r / 400), every point writes its
  block back, and so the array after the run is the specification's array.
-/
import proofs.«151940_g16140487098643_cont_week2b_485_11_alg».proof.Proof.Gen.KernelIdeal.Value
import proofs.«151940_g16140487098643_cont_week2b_485_11_alg».proof.Proof.Pieces
import proofs.«151940_g16140487098643_cont_week2b_485_11_alg».proof.Proof.Payloads
import proofs.«151940_g16140487098643_cont_week2b_485_11_alg».proof.Proof.GraphConvSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GraphValue

open Cert.KernelIdeal Cert.KernelIdeal.Gen

variable (m : (ℓ : Loc nD τ sig) → Buf (Elt Ideal) ℓ) (ρ : Dev nD → PrngReg)

/-- The printed index maps and the scratch load's row offset, decided over the 25 grid points: the adjacency and the
    output windows move one block of 400 rows per point, the other windows stay at block (0, 0), and the body loads
    the scratch rows starting at 400 · t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

/-! ## The windows' blocks, read off the argument arrays -/

/-- The feature window's block is the whole feature array, at every point. -/
theorem feat_block (c : Dev nD) (t : Fin cfg0.N) :
    (iblk m c 1 t : Vec Ideal S10000x128 .f32) = m ((c : Thread nD τ).loc main_arg0) := by
  obtain ⟨-, -, e0, e1, -⟩ := idx_facts t
  funext y
  obtain ⟨k, j, rfl⟩ : ∃ (k : Fin 10000) (j : Fin 128), y = ix2 k j := ⟨y 0, y 1, eq_ix2 y⟩
  refine Eq.trans ?_ (congrFun (V_main_arg0 m c) (ix2 k j))
  unfold iblk
  rw [View.read_apply]
  show V m c main_arg0 (((cfg0.win 1).blk t).view.emb (ix2 k j)) = V m c main_arg0 (ix2 k j)
  refine congrArg (V m c main_arg0) (funext fun a => Fin.ext ?_)
  match a with
  | ⟨0, _⟩ => show win0_1.index t (0 : Fin 2) * 10000 + 1 * k.val = k.val; omega
  | ⟨1, _⟩ => show win0_1.index t (1 : Fin 2) * 128 + 1 * j.val = j.val; omega

/-- The weight window's block is the whole weight array, at every point. -/
theorem weight_block (c : Dev nD) (t : Fin cfg0.N) :
    (iblk m c 2 t : Vec Ideal S128x16 .f32) = m ((c : Thread nD τ).loc main_arg2) := by
  obtain ⟨-, -, -, -, e0, e1, -⟩ := idx_facts t
  funext y
  obtain ⟨j, d, rfl⟩ : ∃ (j : Fin 128) (d : Fin 16), y = ix2 j d := ⟨y 0, y 1, eq_ix2 y⟩
  refine Eq.trans ?_ (congrFun (V_main_arg2 m c) (ix2 j d))
  unfold iblk
  rw [View.read_apply]
  show V m c main_arg2 (((cfg0.win 2).blk t).view.emb (ix2 j d)) = V m c main_arg2 (ix2 j d)
  refine congrArg (V m c main_arg2) (funext fun a => Fin.ext ?_)
  match a with
  | ⟨0, _⟩ => show win0_2.index t (0 : Fin 2) * 128 + 1 * j.val = j.val; omega
  | ⟨1, _⟩ => show win0_2.index t (1 : Fin 2) * 16 + 1 * d.val = d.val; omega

/-! ## The scratch arrays after every point -/

/-- At the first point both scratch arrays are stored from the whole feature and weight arrays. -/
theorem scratch_first (c : Dev nD) (t : Fin cfg0.N) (h0 : t.val % 25 = 0) :
    (outsAt0 m c t.val t.isLt).2.1 = k0_pay2 (m ((c : Thread nD τ).loc main_arg0)) (m ((c : Thread nD τ).loc main_arg2))
      ∧ (outsAt0 m c t.val t.isLt).2.2 = k0_pay3 (m ((c : Thread nD τ).loc main_arg0)) (m ((c : Thread nD τ).loc main_arg2)) := by
  have e := outsAt0_A m c t h0
  rw [Prod.ext_iff, Prod.ext_iff] at e
  dsimp only at e
  obtain ⟨-, es0, es1⟩ := e
  have e1 := Body.scratch_f32_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  have e2 := Body.scratch_bf16_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  have hx := feat_block m c t
  have hw := weight_block m c t
  exact ⟨(es0.trans e1).trans (by rw [hx, hw]), (es1.trans e2).trans (by rw [hx, hw])⟩

/-- After every point both scratch arrays hold what the first point stored: no later point writes them. -/
theorem scratch_after (c : Dev nD) : ∀ (n : ℕ) (hn : n < cfg0.N),
    (outsAt0 m c n hn).2.1 = k0_pay2 (m ((c : Thread nD τ).loc main_arg0)) (m ((c : Thread nD τ).loc main_arg2))
      ∧ (outsAt0 m c n hn).2.2 = k0_pay3 (m ((c : Thread nD τ).loc main_arg0)) (m ((c : Thread nD τ).loc main_arg2))
  | 0, hn => scratch_first m c ⟨0, hn⟩ rfl
  | n + 1, hn => by
    have hN : cfg0.N = 25 := N_0
    have hB : ¬(⟨n + 1, hn⟩ : Fin cfg0.N).val % 25 = 0 := by dsimp only; omega
    have e := outsAt0_B m c ⟨n + 1, hn⟩ hB
    rw [Prod.ext_iff, Prod.ext_iff] at e
    dsimp only at e
    obtain ⟨-, es0, es1⟩ := e
    obtain ⟨s0, s1⟩ := scratch_after c n (Nat.lt_of_succ_lt hn)
    exact ⟨es0.trans s0, es1.trans s1⟩

/-- The adjacency window's block at point t is rows 400·t … 400·t + 399 of the adjacency matrix. -/
theorem adj_block (c : Dev nD) (t : Fin cfg0.N) (p : Fin 400) (k r : Fin 10000) (hr : r.val = 400 * t.val + p.val) :
    (iblk m c 0 t : Vec Ideal S400x10000 .f32) (ix2 p k) = m ((c : Thread nD τ).loc main_arg1) (ix2 r k) := by
  obtain ⟨e0, e1, -⟩ := idx_facts t
  refine Eq.trans ?_ (congrFun (V_main_arg1 m c) (ix2 r k))
  unfold iblk
  rw [View.read_apply]
  show V m c main_arg1 (((cfg0.win 0).blk t).view.emb (ix2 p k)) = V m c main_arg1 (ix2 r k)
  refine congrArg (V m c main_arg1) (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- The array the bias window stages is the bias vector recast as a 1 × 16 row by the host before the region. -/
theorem bias_array (c : Dev nD) :
    (V m c main_v0 : S1x16.Idx → EReal) = shapeCast S1x16 (m ((c : Thread nD τ).loc main_arg3)) shapeCasts_S16_S1x16 := by
  dsimp only [V, hostOps0]; after_results; rfl

/-- The bias window's block, at every point, reads the bias vector along its row. -/
theorem bias_block (c : Dev nD) (t : Fin cfg0.N) (d : Fin 16) :
    (iblk m c 3 t : Vec Ideal S1x16 .f32) (ix2 (0 : Fin 1) d) = m ((c : Thread nD τ).loc main_arg3) (ix1 d) := by
  obtain ⟨-, -, -, -, -, -, e0, e1, -⟩ := idx_facts t
  refine Eq.trans ?_ ((congrFun (bias_array m c) (ix2 (0 : Fin 1) d)).trans (shapeCast_a_1a_apply _ _ (0 : Fin 1) d))
  unfold iblk
  rw [View.read_apply]
  show V m c main_v0 (((cfg0.win 3).blk t).view.emb (ix2 (0 : Fin 1) d)) = V m c main_v0 (ix2 (0 : Fin 1) d)
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 16 + 1 * d.val = d.val; omega

/-! ## The output block after each point -/

/-- The output block after point t: the row payload of the point's adjacency block, the stored support (as the bf16
    scratch holds it), rows 400·t … of the stored support (as the f32 scratch holds it), and the bias row. -/
theorem out_after (c : Dev nD) (t : Fin cfg0.N) :
    (outsAt0 m c t.val t.isLt).1
      = k0_pay4 (iblk m c 0 t) (k0_pay3 (m ((c : Thread nD τ).loc main_arg0)) (m ((c : Thread nD τ).loc main_arg2)))
          (Body.rowsAt (grid0.coords t) (k0_pay2 (m ((c : Thread nD τ).loc main_arg0)) (m ((c : Thread nD τ).loc main_arg2))))
          (iblk m c 3 t) := by
  by_cases h0 : t.val % 25 = 0
  · have e := outsAt0_A m c t h0
    rw [Prod.ext_iff] at e
    dsimp only at e
    have e1 := Body.out_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
    have hx := feat_block m c t
    have hw := weight_block m c t
    exact (e.1.trans e1).trans (by rw [hx, hw])
  · obtain ⟨s0, s1⟩ := scratch_after m c (t.val - 1) (Nat.lt_of_le_of_lt (Nat.sub_le _ _) t.isLt)
    have e := outsAt0_B m c t h0
    rw [Prod.ext_iff] at e
    dsimp only at e
    have e1 := Body.out_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.1
      (outsAt0 m c (t.val - 1) (Nat.lt_of_le_of_lt (Nat.sub_le _ _) t.isLt)).2.2
    exact (e.1.trans e1).trans (by rw [s0, s1])

/-! ## From blocks to the array -/

/-- The result array the kernel ends with: the specification's, of the argument arrays as launched. -/
abbrev result (c : Dev nD) : Buf (Elt Ideal) ((c : Thread nD τ).loc main_v1) :=
  Cert.GraphConv.out (m ((c : Thread nD τ).loc main_arg0)) (m ((c : Thread nD τ).loc main_arg1)) (m ((c : Thread nD τ).loc main_arg2)) (m ((c : Thread nD τ).loc main_arg3))

/-- What point t writes back is block t of that array: rows 400·t … 400·t + 399. Entry (p, d) of the block is the row
    payload there — the adjacency row 400·t + p against the stored support, plus the support's own row 400·t + p, plus
    the bias —, which is the specification at row 400·t + p. -/
theorem flushed_eq (c : Dev nD) (t : Fin cfg0.N) :
    (dats m 0 c).flushed 4 t = ((cfg0.win 4).blk t).view.read (Elt Ideal) (result m c) := by
  obtain ⟨-, -, -, -, -, -, -, -, o0, o1, f0, f1⟩ := idx_facts t
  have hN : cfg0.N = 25 := N_0
  have htl : t.val < 25 := lt_of_lt_of_eq t.isLt hN
  rw [Cert.KernelIdeal.Value.flushed4, out_after]
  funext y
  obtain ⟨p, d, rfl⟩ : ∃ (p : Fin 400) (d : Fin 16), y = ix2 p d := ⟨y 0, y 1, eq_ix2 y⟩
  have hr : 400 * t.val + p.val < 10000 := by have := p.isLt; omega
  have hemb : ((cfg0.win 4).blk t).view.emb (ix2 p d) = ix2 (⟨400 * t.val + p.val, hr⟩ : Fin 10000) d :=
    funext fun a => Fin.ext (by
      match a with
      | ⟨0, _⟩ => show win0_4.index t (0 : Fin 2) * 400 + 1 * p.val = 400 * t.val + p.val; omega
      | ⟨1, _⟩ => show win0_4.index t (1 : Fin 2) * 16 + 1 * d.val = d.val; omega)
  have hrow : (Rect.unit (s := S10000x16) (k0_off1 (grid0.coords t)) S400x16.size (k0_off1_inb (grid0.coords t))).idx (ix2 p d)
      = ix2 (⟨400 * t.val + p.val, hr⟩ : Fin 10000) d :=
    funext fun a => Fin.ext (by
      match a with
      | ⟨0, _⟩ => show k0_off1 (grid0.coords t) (0 : Fin 2) + 1 * p.val = 400 * t.val + p.val; omega
      | ⟨1, _⟩ => show k0_off1 (grid0.coords t) (1 : Fin 2) + 1 * d.val = d.val; omega)
  show (k0_pay4 (F := Ideal) (iblk m c 0 t) (k0_pay3 (m ((c : Thread nD τ).loc main_arg0)) (m ((c : Thread nD τ).loc main_arg2))) (Body.rowsAt (grid0.coords t) (k0_pay2 (m ((c : Thread nD τ).loc main_arg0)) (m ((c : Thread nD τ).loc main_arg2)))) (iblk m c 3 t) (ix2 p d) : EReal)
    = result m c (((cfg0.win 4).blk t).view.emb (ix2 p d))
  rw [hemb]
  refine (Payload.rows_at (iblk m c 0 t) (k0_pay3 (m ((c : Thread nD τ).loc main_arg0)) (m ((c : Thread nD τ).loc main_arg2)))
    (Body.rowsAt (grid0.coords t) (k0_pay2 (m ((c : Thread nD τ).loc main_arg0)) (m ((c : Thread nD τ).loc main_arg2)))) (iblk m c 3 t) p d).trans ?_
  show _ = Cert.GraphConv.outAt (m ((c : Thread nD τ).loc main_arg0)) (m ((c : Thread nD τ).loc main_arg1)) (m ((c : Thread nD τ).loc main_arg2)) (m ((c : Thread nD τ).loc main_arg3)) ⟨400 * t.val + p.val, hr⟩ d
  unfold Cert.GraphConv.outAt
  rw [bias_block m c t d]
  refine congrArg (fun z : EReal => z + (m ((c : Thread nD τ).loc main_arg3)) (ix1 d)) ?_
  refine congrArg₂ (fun u v : EReal => u + v) (Finset.sum_congr rfl fun k _ => ?_) ?_
  · rw [adj_block m c t p k ⟨400 * t.val + p.val, hr⟩ rfl, Payload.bf16_store_at, Payload.support_at]
  · show (k0_pay2 (F := Ideal) (m ((c : Thread nD τ).loc main_arg0)) (m ((c : Thread nD τ).loc main_arg2))
      ((Rect.unit (s := S10000x16) (k0_off1 (grid0.coords t)) S400x16.size (k0_off1_inb (grid0.coords t))).idx (ix2 p d)) : EReal) = _
    rw [hrow, Payload.f32_store, Payload.support_at]

/-- An index of the result array is in point t's block iff each coordinate is in the block's range on its axis. -/
theorem mem_block (t : Fin cfg0.N) (i : S10000x16.Idx) :
    i ∈ ((cfg0.win 4).blk t).view.set ↔ ∀ a : Fin 2, win0_4.index t a * S400x16.size a ≤ (i a).val
      ∧ (i a).val < win0_4.index t a * S400x16.size a + S400x16.size a := by
  show i ∈ ((View.whole main_v1).slice (win0_4.rect t)).set ↔ _
  rw [View.set_slice_whole, Rect.mem_set_unit]
  exact Iff.rfl

/-- Every index of the result array is in some point's block: row r is in the block of point r / 400. -/
theorem covered (i : S10000x16.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 16 := (i 1).isLt
  have hq : (i 0).val / 400 < cfg0.N := by rw [hN]; omega
  obtain ⟨-, -, -, -, -, -, -, -, o0, o1, -⟩ := idx_facts ⟨(i 0).val / 400, hq⟩
  refine ⟨⟨(i 0).val / 400, hq⟩, flush0_4 _, ?_⟩
  rw [mem_block]
  intro a
  match a with
  | ⟨0, _⟩ =>
    show win0_4.index ⟨(i 0).val / 400, hq⟩ (0 : Fin 2) * 400 ≤ (i 0).val
      ∧ (i 0).val < win0_4.index ⟨(i 0).val / 400, hq⟩ (0 : Fin 2) * 400 + 400
    rw [o0]; dsimp only; omega
  | ⟨1, _⟩ =>
    show win0_4.index ⟨(i 0).val / 400, hq⟩ (1 : Fin 2) * 16 ≤ (i 1).val
      ∧ (i 1).val < win0_4.index ⟨(i 0).val / 400, hq⟩ (1 : Fin 2) * 16 + 16
    rw [o1]; omega

/-- So after the run the result array holds the specification's array. -/
theorem final (c : Dev nD) : (dats m 0 c).arrAt 4 cfg0.N = result m c :=
  (dats m 0 c).arrAt_eq_of_cover 4 (result m c) (fun t _ => flushed_eq m c t) covered

/-- The kernel's run, read: every weakly fair execution terminates with the result array at the specification's
    array of the arguments as launched, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.GraphValue

end
-- ==== Proof.lean ====
/-
  A graph-convolution layer against its plain reference, over the extended reals.

  Both programs take features x (10000 × 128), an adjacency matrix a (10000 × 10000), weights w (128 × 16) and a bias b
  (16), and both compute, with support = relu(x · w),

      out (r, d) = (Σ_k a(r, k) · support(k, d) + support(r, d)) + b d.

  The kernel walks 25 blocks of 400 rows. At the first block it forms support once and keeps it in two scratch arrays
  (one of them in a narrower float format, which over the extended reals is the same array); at every block it
  multiplies the block's rows of a by the kept support, adds the block's own rows of the kept support and the bias, and
  writes the block out. The reference adds the identity matrix to a entry by entry, multiplies (a + I) by support, and
  adds the bias. The two agree by distributing the product over a + I, which is sound because under the precondition
  every entry of x, a and w — hence of support — is a real number; the identity's contribution to row r is then
  exactly support(r, ·).

  The three frames are the generated ones (the reference's is its generated run with the result dropped); the kernel's
  idealization rewrote nothing; the value claim sets the kernel's run (Proof/KernelValue.lean) beside the reference's
  (Proof/RefIsSpec.lean), both stated at the one specification Proof/GraphConvSpec.lean.
-/
import proofs.«151940_g16140487098643_cont_week2b_485_11_alg».proof.Defs
import proofs.«151940_g16140487098643_cont_week2b_485_11_alg».proof.Proof.Gen.Kernel
import proofs.«151940_g16140487098643_cont_week2b_485_11_alg».proof.Proof.Gen.Kernel.Skeleton
import proofs.«151940_g16140487098643_cont_week2b_485_11_alg».proof.Proof.Gen.Kernel.Launch
import proofs.«151940_g16140487098643_cont_week2b_485_11_alg».proof.Proof.Gen.Kernel.Points
import proofs.«151940_g16140487098643_cont_week2b_485_11_alg».proof.Proof.Gen.Kernel.Frame
import proofs.«151940_g16140487098643_cont_week2b_485_11_alg».proof.Proof.Gen.KernelIdeal
import proofs.«151940_g16140487098643_cont_week2b_485_11_alg».proof.Proof.Gen.KernelIdeal.Skeleton
import proofs.«151940_g16140487098643_cont_week2b_485_11_alg».proof.Proof.Gen.KernelIdeal.Launch
import proofs.«151940_g16140487098643_cont_week2b_485_11_alg».proof.Proof.Gen.KernelIdeal.Points
import proofs.«151940_g16140487098643_cont_week2b_485_11_alg».proof.Proof.Gen.KernelIdeal.Frame
import proofs.«151940_g16140487098643_cont_week2b_485_11_alg».proof.Proof.Gen.ReferenceIdeal
import proofs.«151940_g16140487098643_cont_week2b_485_11_alg».proof.Proof.Gen.Pre_finite_inputs
import proofs.«151940_g16140487098643_cont_week2b_485_11_alg».proof.Proof.Gen.KernelIdeal.Value
import proofs.«151940_g16140487098643_cont_week2b_485_11_alg».proof.Proof.Gen.ReferenceIdeal.Run
import proofs.«151940_g16140487098643_cont_week2b_485_11_alg».proof.Proof.Gen.ReferenceIdeal.Read
import proofs.«151940_g16140487098643_cont_week2b_485_11_alg».proof.Proof.GraphConvSpec
import proofs.«151940_g16140487098643_cont_week2b_485_11_alg».proof.Proof.Finite
import proofs.«151940_g16140487098643_cont_week2b_485_11_alg».proof.Proof.RefIsSpec
import proofs.«151940_g16140487098643_cont_week2b_485_11_alg».proof.Proof.KernelValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree and are finite, both programs end with the specification's array: the kernel by its
    run read block by block, the reference by its stages read at an index and the distributive law over real entries. -/
theorem algebraic : Cert.algebraic_KernelIdeal_ReferenceIdeal := by
  intro m ρ m' ρ' hpre hagree
  refine ⟨fun c => Cert.KernelIdeal.GraphValue.result m c, Cert.KernelIdeal.GraphValue.run m ρ, ?_⟩
  refine (θ_run Cert.ReferenceIdeal.defs _ _).mono (fun _ h c => ⟨?_, (h c).2⟩)
    (Cert.ReferenceIdeal.Value.run (F := Ideal) m' ρ')
  obtain ⟨h0, h1, h2⟩ := Cert.Pre_finite_inputs.Decode.reals_of_pre _ _ _ _ (hpre c)
  rw [(h c).1, Cert.ReferenceIdeal.Read.val_main_v12_eq, (hagree c).1, (hagree c).2.1, (hagree c).2.2.1,
    (hagree c).2.2.2]
  exact Cert.ReferenceIdeal.RefValue.result_eq _ _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
